-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S2048x8192 .f32) (main_arg2 : FVec F S8192 .f32) (main_arg3 : FVec F S8192x2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1x8192 : Shape := ⟨2, ![1, 8192]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S512x2048 : Shape := ⟨2, ![512, 2048]⟩
abbrev S1024x512 : Shape := ⟨2, ![1024, 512]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S8192x2048, .bf16⟩
  | .hbm, ⟨6, _⟩ => ⟨S2048x8192, .bf16⟩
  | .hbm, ⟨7, _⟩ => ⟨S8192x2048, .bf16⟩
  | .hbm, ⟨8, _⟩ => ⟨S1x8192, .f32⟩
  | .hbm, ⟨9, _⟩ => ⟨S1x2048, .f32⟩
  | .hbm, ⟨10, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def k0_cond3 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S8192_S1x8192 : S8192.ShapeCasts S1x8192
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x2048_S2048x512_S1024x512_1_0_0_1_n_n_wf : DotDims.WF S1024x2048 S2048x512 S1024x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .bf16 = 32 ∨ (Rect.block (s := S2048x8192) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .bf16 = 32 ∨ (Rect.block (s := S8192x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x2048.size a
  hwx0_5 : ∀ i : grid0.Coords, EltTy.bits .f32 = 32 ∨ (Rect.block (s := S8192x2048) S1024x2048.size (cc0_transform_5 i) (hinb0_5 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S8192x8192 : Shape := ⟨2, ![8192, 8192]⟩
abbrev S1x8192 : Shape := ⟨2, ![1, 8192]⟩
abbrev S_ : Shape := ⟨0, ![]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.K.Cases.lean ====
/-
  The grid of the MLP kernel is 8 row tiles by 16 hidden blocks, the hidden block the fast axis: point t works on
  row tile t / 16 and hidden block t % 16. The body has three conditionals on the hidden block h alone:
  h = 0 (the output tile is assigned the block's contribution), h > 0 (the contribution is added to the tile) and
  h = 15 (the second bias is added). This module decides the three conditions over the 128 points in closed form,
  and that at every point at least one of them holds, so the output window is never idle.
-/
import proofs.«131523_j1331439862247_2_alg».proof.Proof.Gen.Kernel.Frame
import proofs.«131523_j1331439862247_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional (h = 0) holds exactly at the points that start a row tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second conditional (h > 0) holds exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The third conditional (h = 15) holds exactly at the points that end a row tile. -/
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- h = 0 or h > 0: the body stores into the output tile at every point. -/
theorem never_idle : ∀ i : grid0.Coords, cfg0.idle 5 i = false := by decide +kernel

/-- The output tile's staging buffer through which its contents are stated (either buffer would do). -/
abbrev tileView : View sig .tc .vmem S1024x2048 .f32 := (Memref.whole cc0_stg5_0 : Memref sig .tc .vmem S1024x2048 .f32).view

end Cert.Kernel.Body

end
-- ==== Proof.K.RunFirst.lean ====
/-
  The kernel body run whole in the case h = 0: the tile's buffer, holding anything, is assigned the hidden block's contribution.
  The five input buffers are held at given contents and come back unchanged; the output tile's buffer comes back
  with the body's stores written over it, as a list of pieces (the last store first) that the run itself finds.
-/
import proofs.«131523_j1331439862247_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at anything, the body runs to the continuation with the
    inputs as they were and the tile's buffer at those pieces. -/
noncomputable def runFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1)
    (x0 : Vec F S1024x2048 .bf16) (x1 : Vec F S2048x512 .bf16) (x2 : Vec F S1x512 .f32) (x3 : Vec F S512x2048 .bf16) (x4 : Vec F S1x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.K.RunMiddle.lean ====
/-
  The kernel body run whole in the case 0 < h < 15: the hidden block's contribution is added to the running tile `xo`.
  The five input buffers are held at given contents and come back unchanged; the output tile's buffer comes back
  with the body's stores written over it, as a list of pieces (the last store first) that the run itself finds.
-/
import proofs.«131523_j1331439862247_2_alg».proof.Proof.K.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at `xo`, the body runs to the continuation with the
    inputs as they were and the tile's buffer at those pieces. -/
noncomputable def runMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1)
    (x0 : Vec F S1024x2048 .bf16) (x1 : Vec F S2048x512 .bf16) (x2 : Vec F S1x512 .f32) (x3 : Vec F S512x2048 .bf16) (x4 : Vec F S1x2048 .f32) (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.K.RunLast.lean ====
/-
  The kernel body run whole in the case h = 15: the hidden block's contribution is added to the running tile `xo`, then the second bias is added to the sum.
  The five input buffers are held at given contents and come back unchanged; the output tile's buffer comes back
  with the body's stores written over it, as a list of pieces (the last store first) that the run itself finds.
-/
import proofs.«131523_j1331439862247_2_alg».proof.Proof.K.RunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at `xo`, the body runs to the continuation with the
    inputs as they were and the tile's buffer at those pieces. -/
noncomputable def runLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1)
    (x0 : Vec F S1024x2048 .bf16) (x1 : Vec F S2048x512 .bf16) (x2 : Vec F S1x512 .f32) (x3 : Vec F S512x2048 .bf16) (x4 : Vec F S1x2048 .f32) (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.K.Body.lean ====
/-
  The frame of the MLP kernel, from the three whole-body runs.

  Per case, what the body leaves in the output tile's staging buffer is its stores read back. Point by point, the
  tile's buffer after point n holds: at the start of a row tile (n % 16 = 0) the first case's contents; at the end
  (n % 16 = 15) the last case's over what point n - 1 left; otherwise the middle case's over what point n - 1 left.
  The buffer is written back only at the points n % 16 = 15 and the window is never idle, so between two points of one
  row tile it keeps what the body left. The inputs' buffers hold their blocks at every point. With this proof data the
  body obligation is a case split on n % 16, each leaf one of the three runs, and the pipeline library's frame run gives
  termination without a fault and the argument arrays unchanged.
-/
import proofs.«131523_j1331439862247_2_alg».proof.Proof.K.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which conditionals hold where -/

theorem not_later_of_first (t : Fin cfg0.N) (h0 : t.val % 16 = 0) : ¬ k0_cond2 (grid0.coords t) = 1#1 :=
  fun h => (later_iff t).mp h h0
theorem not_last_of_first (t : Fin cfg0.N) (h0 : t.val % 16 = 0) : ¬ k0_cond3 (grid0.coords t) = 1#1 :=
  fun h => by have := (last_iff t).mp h; omega
theorem not_first_of_later (t : Fin cfg0.N) (h0 : ¬ t.val % 16 = 0) : ¬ k0_cond1 (grid0.coords t) = 1#1 :=
  fun h => h0 ((first_iff t).mp h)
theorem not_last_of_ne (t : Fin cfg0.N) (h15 : ¬ t.val % 16 = 15) : ¬ k0_cond3 (grid0.coords t) = 1#1 :=
  fun h => h15 ((last_iff t).mp h)
theorem later_of_last (t : Fin cfg0.N) (h15 : t.val % 16 = 15) : ¬ t.val % 16 = 0 := by omega

/-! ## The staging memrefs at a point, as the pipeline passes them -/

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)

/-! ## What each case leaves in the tile's buffer -/

/-- The first case's store is of the whole tile, so its pieces cover it. -/
theorem coverFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (y : S1024x2048.Idx) :
    ∃ pc ∈ (runFirst c i arg2 harg2 arg3 harg3 arg4 harg4 arg5 harg5 arg6 harg6 arg7 harg7 h1 h2 h3 x0 x1 x2 x3 x4).1, y ∈ pc.1.set :=
  View.cover_of_tiledL (runFirst c i arg2 harg2 arg3 harg3 arg4 harg4 arg5 harg5 arg6 harg6 arg7 harg7 h1 h2 h3 x0 x1 x2 x3 x4).1 S1024x2048.size (by sl_kernel_rfl) y

/-- The tile after the first case: its pieces read back. -/
def outFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) : Vec F S1024x2048 .f32 :=
  tileView.read (Elt F) (tileView.writes (Elt F) tileView.junk (runFirst c i arg2 harg2 arg3 harg3 arg4 harg4 arg5 harg5 arg6 harg6 arg7 harg7 h1 h2 h3 x0 x1 x2 x3 x4).1)

/-- The middle case's store is of the whole tile, so its pieces cover it. -/
theorem coverMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) (y : S1024x2048.Idx) :
    ∃ pc ∈ (runMiddle c i arg2 harg2 arg3 harg3 arg4 harg4 arg5 harg5 arg6 harg6 arg7 harg7 h1 h2 h3 x0 x1 x2 x3 x4 xo).1, y ∈ pc.1.set :=
  View.cover_of_tiledL (runMiddle c i arg2 harg2 arg3 harg3 arg4 harg4 arg5 harg5 arg6 harg6 arg7 harg7 h1 h2 h3 x0 x1 x2 x3 x4 xo).1 S1024x2048.size (by sl_kernel_rfl) y

/-- The tile after the middle case, over the running tile `xo`. -/
def outMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) : Vec F S1024x2048 .f32 :=
  tileView.read (Elt F) (tileView.writes (Elt F) tileView.junk (runMiddle c i arg2 harg2 arg3 harg3 arg4 harg4 arg5 harg5 arg6 harg6 arg7 harg7 h1 h2 h3 x0 x1 x2 x3 x4 xo).1)

/-- The last case's two stores are each of the whole tile, so its pieces cover it. -/
theorem coverLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) (y : S1024x2048.Idx) :
    ∃ pc ∈ (runLast c i arg2 harg2 arg3 harg3 arg4 harg4 arg5 harg5 arg6 harg6 arg7 harg7 h1 h2 h3 x0 x1 x2 x3 x4 xo).1, y ∈ pc.1.set :=
  View.cover_of_tiledL (runLast c i arg2 harg2 arg3 harg3 arg4 harg4 arg5 harg5 arg6 harg6 arg7 harg7 h1 h2 h3 x0 x1 x2 x3 x4 xo).1 S1024x2048.size (by sl_kernel_rfl) y

/-- The tile after the last case, over the running tile `xo`. -/
def outLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) : Vec F S1024x2048 .f32 :=
  tileView.read (Elt F) (tileView.writes (Elt F) tileView.junk (runLast c i arg2 harg2 arg3 harg3 arg4 harg4 arg5 harg5 arg6 harg6 arg7 harg7 h1 h2 h3 x0 x1 x2 x3 x4 xo).1)

/-! ## The tile's buffer, point by point -/

/-- What the output tile's staging buffer holds after the body at point `n`. -/
def tileAfter (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((first_iff ⟨0, hn⟩).mpr (Nat.zero_mod _)) (not_later_of_first ⟨0, hn⟩ (Nat.zero_mod _)) (not_last_of_first ⟨0, hn⟩ (Nat.zero_mod _))
      (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((first_iff ⟨n + 1, hn⟩).mpr h0) (not_later_of_first ⟨n + 1, hn⟩ h0) (not_last_of_first ⟨n + 1, hn⟩ h0)
        (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (not_first_of_later ⟨n + 1, hn⟩ h0) ((later_iff ⟨n + 1, hn⟩).mpr h0) ((last_iff ⟨n + 1, hn⟩).mpr h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (tileAfter c n (Nat.lt_of_succ_lt hn))
    else
      outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (not_first_of_later ⟨n + 1, hn⟩ h0) ((later_iff ⟨n + 1, hn⟩).mpr h0) (not_last_of_ne ⟨n + 1, hn⟩ h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (tileAfter c n (Nat.lt_of_succ_lt hn))

/-- At the start of a row tile: the first case's contents. -/
theorem tileAfter_first (c : Dev nD) (t : Fin cfg0.N) (h0 : t.val % 16 = 0) :
    tileAfter m c t.val t.isLt = outFirst c (grid0.coords t) (ms0 t) (hs0 t) (ms1 t) (hs1 t) (ms2 t) (hs2 t) (ms3 t) (hs3 t) (ms4 t) (hs4 t) (ms5 t) (hs5 t)
      ((first_iff t).mpr h0) (not_later_of_first t h0) (not_last_of_first t h0) (iblk m c 0 t) (iblk m c 1 t) (iblk m c 2 t) (iblk m c 3 t) (iblk m c 4 t) := by
  obtain ⟨n, hn⟩ := t
  cases n with
  | zero => exact rfl
  | succ n => exact (dif_pos h0).trans rfl

/-- Strictly inside a row tile: the middle case's contents over what the point before left. -/
theorem tileAfter_middle (c : Dev nD) (t : Fin cfg0.N) (h0 : ¬ t.val % 16 = 0) (h15 : ¬ t.val % 16 = 15) :
    tileAfter m c t.val t.isLt = outMiddle c (grid0.coords t) (ms0 t) (hs0 t) (ms1 t) (hs1 t) (ms2 t) (hs2 t) (ms3 t) (hs3 t) (ms4 t) (hs4 t) (ms5 t) (hs5 t)
      (not_first_of_later t h0) ((later_iff t).mpr h0) (not_last_of_ne t h15) (iblk m c 0 t) (iblk m c 1 t) (iblk m c 2 t) (iblk m c 3 t) (iblk m c 4 t)
      (tileAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- At the end of a row tile: the last case's contents over what the point before left. -/
theorem tileAfter_last (c : Dev nD) (t : Fin cfg0.N) (h15 : t.val % 16 = 15) :
    tileAfter m c t.val t.isLt = outLast c (grid0.coords t) (ms0 t) (hs0 t) (ms1 t) (hs1 t) (ms2 t) (hs2 t) (ms3 t) (hs3 t) (ms4 t) (hs4 t) (ms5 t) (hs5 t)
      (not_first_of_later t (later_of_last t h15)) ((later_iff t).mpr (later_of_last t h15)) ((last_iff t).mpr h15) (iblk m c 0 t) (iblk m c 1 t) (iblk m c 2 t) (iblk m c 3 t) (iblk m c 4 t)
      (tileAfter m c (t.val - 1) (Nat.lt_of_le_of_lt (Nat.sub_le _ _) t.isLt)) := by
  obtain ⟨n, hn⟩ := t
  cases n with
  | zero => exact absurd h15 (by show ¬ (0 : ℕ) % 16 = 15; decide)
  | succ n => exact (dif_neg (later_of_last ⟨n + 1, hn⟩ h15)).trans ((dif_pos h15).trans rfl)

/-! ## The pipeline's proof data -/

/-- The arrays as the region finds them; after the body each input's buffer at its block and the tile's at
    `tileAfter`; the invariant the scoped rest and the generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tileAfter m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Inside a row tile the output's staging buffer holds what the body left at the point before: the point is not the
    first, the buffer was not written back between (that happens only after the points n % 16 = 15), the window is
    never idle and its blocks are whole. -/
theorem before5_kept (c : Dev nD) (t : Fin cfg0.N) (h0 : ¬ t.val % 16 = 0) (d) :
    (dats m 0 c).before 5 t d = tileAfter m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    never_idle (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the position in the row tile says which case
    the point is in; inside a row tile the output's buffer holds what the point before left; so that case's run
    applies. The invariant passes through untouched and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 16 = 0
  · rw [tileAfter_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0) (not_later_of_first t h0) (not_last_of_first t h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · by_cases h15 : t.val % 16 = 15
    · rw [tileAfter_last m c t h15]
      simp only [before5_kept m c t h0]
      unfold outLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (not_first_of_later t h0) ((later_iff t).mpr h0) ((last_iff t).mpr h15)
        (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    · rw [tileAfter_middle m c t h0 h15]
      simp only [before5_kept m c t h0]
      unfold outMiddle
      iintro ⟨HΦ, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ (not_first_of_later t h0) ((later_iff t).mpr h0) (not_last_of_ne t h15)
        (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMiddle c _ _ _ _ _ _ _ _ _ _ _ _ _ _ _ _ _ _ _ _ _ _)

end Cert.Kernel.Body

end
-- ==== Proof.K.Frame.lean ====
/-
  The body obligation of the pipeline library from the body's triple at a generic point, then the frame run.
  The library states what the body returns per window by cases on whether the window is idle at the point; the
  output window is never idle (at every point the first or the second conditional holds), so its case is the plain one.
-/
import proofs.«131523_j1331439862247_2_alg».proof.Proof.K.Body

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  have hlive : cfg0.idle 5 (cfg0.grid.coords t) = false := never_idle _
  rw [hlive]
  exact sound_body m c t

/-! ## The run and the frame -/

set_option backward.isDefEq.respectTransparency.types false in
/-- From any memory with zero counters every weakly fair execution of @main terminates without a fault, every array of
    the pipeline ending at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Cases.lean ====
/-
  The grid of the MLP kernel is 8 row tiles by 16 hidden blocks, the hidden block the fast axis: point t works on
  row tile t / 16 and hidden block t % 16. The body has three conditionals on the hidden block h alone:
  h = 0 (the output tile is assigned the block's contribution), h > 0 (the contribution is added to the tile) and
  h = 15 (the second bias is added). This module decides the three conditions over the 128 points in closed form,
  and that at every point at least one of them holds, so the output window is never idle.
-/
import proofs.«131523_j1331439862247_2_alg».proof.Proof.Gen.KernelIdeal.Frame
import proofs.«131523_j1331439862247_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional (h = 0) holds exactly at the points that start a row tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second conditional (h > 0) holds exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The third conditional (h = 15) holds exactly at the points that end a row tile. -/
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- h = 0 or h > 0: the body stores into the output tile at every point. -/
theorem never_idle : ∀ i : grid0.Coords, cfg0.idle 5 i = false := by decide +kernel

/-- The output tile's staging buffer through which its contents are stated (either buffer would do). -/
abbrev tileView : View sig .tc .vmem S1024x2048 .f32 := (Memref.whole cc0_stg5_0 : Memref sig .tc .vmem S1024x2048 .f32).view

end Cert.KernelIdeal.Body

end
-- ==== Proof.KI.RunFirst.lean ====
/-
  The kernel body run whole in the case h = 0: the tile's buffer, holding anything, is assigned the hidden block's contribution.
  The five input buffers are held at given contents and come back unchanged; the output tile's buffer comes back
  with the body's stores written over it, as a list of pieces (the last store first) that the run itself finds.
-/
import proofs.«131523_j1331439862247_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at anything, the body runs to the continuation with the
    inputs as they were and the tile's buffer at those pieces. -/
noncomputable def runFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1)
    (x0 : Vec F S1024x2048 .bf16) (x1 : Vec F S2048x512 .bf16) (x2 : Vec F S1x512 .f32) (x3 : Vec F S512x2048 .bf16) (x4 : Vec F S1x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.RunMiddle.lean ====
/-
  The kernel body run whole in the case 0 < h < 15: the hidden block's contribution is added to the running tile `xo`.
  The five input buffers are held at given contents and come back unchanged; the output tile's buffer comes back
  with the body's stores written over it, as a list of pieces (the last store first) that the run itself finds.
-/
import proofs.«131523_j1331439862247_2_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at `xo`, the body runs to the continuation with the
    inputs as they were and the tile's buffer at those pieces. -/
noncomputable def runMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1)
    (x0 : Vec F S1024x2048 .bf16) (x1 : Vec F S2048x512 .bf16) (x2 : Vec F S1x512 .f32) (x3 : Vec F S512x2048 .bf16) (x4 : Vec F S1x2048 .f32) (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.RunLast.lean ====
/-
  The kernel body run whole in the case h = 15: the hidden block's contribution is added to the running tile `xo`, then the second bias is added to the sum.
  The five input buffers are held at given contents and come back unchanged; the output tile's buffer comes back
  with the body's stores written over it, as a list of pieces (the last store first) that the run itself finds.
-/
import proofs.«131523_j1331439862247_2_alg».proof.Proof.KI.RunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output tile's buffer in this case, with the body's triple: from the inputs'
    buffers at `x0 … x4` and the tile's buffer at `xo`, the body runs to the continuation with the
    inputs as they were and the tile's buffer at those pieces. -/
noncomputable def runLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1)
    (x0 : Vec F S1024x2048 .bf16) (x1 : Vec F S2048x512 .bf16) (x2 : Vec F S1x512 .f32) (x3 : Vec F S512x2048 .bf16) (x4 : Vec F S1x2048 .f32) (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.Body.lean ====
/-
  The frame of the MLP kernel, from the three whole-body runs.

  Per case, what the body leaves in the output tile's staging buffer is its stores read back. Point by point, the
  tile's buffer after point n holds: at the start of a row tile (n % 16 = 0) the first case's contents; at the end
  (n % 16 = 15) the last case's over what point n - 1 left; otherwise the middle case's over what point n - 1 left.
  The buffer is written back only at the points n % 16 = 15 and the window is never idle, so between two points of one
  row tile it keeps what the body left. The inputs' buffers hold their blocks at every point. With this proof data the
  body obligation is a case split on n % 16, each leaf one of the three runs, and the pipeline library's frame run gives
  termination without a fault and the argument arrays unchanged.
-/
import proofs.«131523_j1331439862247_2_alg».proof.Proof.KI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which conditionals hold where -/

theorem not_later_of_first (t : Fin cfg0.N) (h0 : t.val % 16 = 0) : ¬ k0_cond2 (grid0.coords t) = 1#1 :=
  fun h => (later_iff t).mp h h0
theorem not_last_of_first (t : Fin cfg0.N) (h0 : t.val % 16 = 0) : ¬ k0_cond3 (grid0.coords t) = 1#1 :=
  fun h => by have := (last_iff t).mp h; omega
theorem not_first_of_later (t : Fin cfg0.N) (h0 : ¬ t.val % 16 = 0) : ¬ k0_cond1 (grid0.coords t) = 1#1 :=
  fun h => h0 ((first_iff t).mp h)
theorem not_last_of_ne (t : Fin cfg0.N) (h15 : ¬ t.val % 16 = 15) : ¬ k0_cond3 (grid0.coords t) = 1#1 :=
  fun h => h15 ((last_iff t).mp h)
theorem later_of_last (t : Fin cfg0.N) (h15 : t.val % 16 = 15) : ¬ t.val % 16 = 0 := by omega

/-! ## The staging memrefs at a point, as the pipeline passes them -/

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)

/-! ## What each case leaves in the tile's buffer -/

/-- The first case's store is of the whole tile, so its pieces cover it. -/
theorem coverFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (y : S1024x2048.Idx) :
    ∃ pc ∈ (runFirst c i arg2 harg2 arg3 harg3 arg4 harg4 arg5 harg5 arg6 harg6 arg7 harg7 h1 h2 h3 x0 x1 x2 x3 x4).1, y ∈ pc.1.set :=
  View.cover_of_tiledL (runFirst c i arg2 harg2 arg3 harg3 arg4 harg4 arg5 harg5 arg6 harg6 arg7 harg7 h1 h2 h3 x0 x1 x2 x3 x4).1 S1024x2048.size (by sl_kernel_rfl) y

/-- The tile after the first case: its pieces read back. -/
def outFirst (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) : Vec F S1024x2048 .f32 :=
  tileView.read (Elt F) (tileView.writes (Elt F) tileView.junk (runFirst c i arg2 harg2 arg3 harg3 arg4 harg4 arg5 harg5 arg6 harg6 arg7 harg7 h1 h2 h3 x0 x1 x2 x3 x4).1)

/-- The middle case's store is of the whole tile, so its pieces cover it. -/
theorem coverMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) (y : S1024x2048.Idx) :
    ∃ pc ∈ (runMiddle c i arg2 harg2 arg3 harg3 arg4 harg4 arg5 harg5 arg6 harg6 arg7 harg7 h1 h2 h3 x0 x1 x2 x3 x4 xo).1, y ∈ pc.1.set :=
  View.cover_of_tiledL (runMiddle c i arg2 harg2 arg3 harg3 arg4 harg4 arg5 harg5 arg6 harg6 arg7 harg7 h1 h2 h3 x0 x1 x2 x3 x4 xo).1 S1024x2048.size (by sl_kernel_rfl) y

/-- The tile after the middle case, over the running tile `xo`. -/
def outMiddle (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) : Vec F S1024x2048 .f32 :=
  tileView.read (Elt F) (tileView.writes (Elt F) tileView.junk (runMiddle c i arg2 harg2 arg3 harg3 arg4 harg4 arg5 harg5 arg6 harg6 arg7 harg7 h1 h2 h3 x0 x1 x2 x3 x4 xo).1)

/-- The last case's two stores are each of the whole tile, so its pieces cover it. -/
theorem coverLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) (y : S1024x2048.Idx) :
    ∃ pc ∈ (runLast c i arg2 harg2 arg3 harg3 arg4 harg4 arg5 harg5 arg6 harg6 arg7 harg7 h1 h2 h3 x0 x1 x2 x3 x4 xo).1, y ∈ pc.1.set :=
  View.cover_of_tiledL (runLast c i arg2 harg2 arg3 harg3 arg4 harg4 arg5 harg5 arg6 harg6 arg7 harg7 h1 h2 h3 x0 x1 x2 x3 x4 xo).1 S1024x2048.size (by sl_kernel_rfl) y

/-- The tile after the last case, over the running tile `xo`. -/
def outLast (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) : Vec F S1024x2048 .f32 :=
  tileView.read (Elt F) (tileView.writes (Elt F) tileView.junk (runLast c i arg2 harg2 arg3 harg3 arg4 harg4 arg5 harg5 arg6 harg6 arg7 harg7 h1 h2 h3 x0 x1 x2 x3 x4 xo).1)

/-! ## The tile's buffer, point by point -/

/-- What the output tile's staging buffer holds after the body at point `n`. -/
def tileAfter (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((first_iff ⟨0, hn⟩).mpr (Nat.zero_mod _)) (not_later_of_first ⟨0, hn⟩ (Nat.zero_mod _)) (not_last_of_first ⟨0, hn⟩ (Nat.zero_mod _))
      (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((first_iff ⟨n + 1, hn⟩).mpr h0) (not_later_of_first ⟨n + 1, hn⟩ h0) (not_last_of_first ⟨n + 1, hn⟩ h0)
        (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (not_first_of_later ⟨n + 1, hn⟩ h0) ((later_iff ⟨n + 1, hn⟩).mpr h0) ((last_iff ⟨n + 1, hn⟩).mpr h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (tileAfter c n (Nat.lt_of_succ_lt hn))
    else
      outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (not_first_of_later ⟨n + 1, hn⟩ h0) ((later_iff ⟨n + 1, hn⟩).mpr h0) (not_last_of_ne ⟨n + 1, hn⟩ h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (tileAfter c n (Nat.lt_of_succ_lt hn))

/-- At the start of a row tile: the first case's contents. -/
theorem tileAfter_first (c : Dev nD) (t : Fin cfg0.N) (h0 : t.val % 16 = 0) :
    tileAfter m c t.val t.isLt = outFirst c (grid0.coords t) (ms0 t) (hs0 t) (ms1 t) (hs1 t) (ms2 t) (hs2 t) (ms3 t) (hs3 t) (ms4 t) (hs4 t) (ms5 t) (hs5 t)
      ((first_iff t).mpr h0) (not_later_of_first t h0) (not_last_of_first t h0) (iblk m c 0 t) (iblk m c 1 t) (iblk m c 2 t) (iblk m c 3 t) (iblk m c 4 t) := by
  obtain ⟨n, hn⟩ := t
  cases n with
  | zero => exact rfl
  | succ n => exact (dif_pos h0).trans rfl

/-- Strictly inside a row tile: the middle case's contents over what the point before left. -/
theorem tileAfter_middle (c : Dev nD) (t : Fin cfg0.N) (h0 : ¬ t.val % 16 = 0) (h15 : ¬ t.val % 16 = 15) :
    tileAfter m c t.val t.isLt = outMiddle c (grid0.coords t) (ms0 t) (hs0 t) (ms1 t) (hs1 t) (ms2 t) (hs2 t) (ms3 t) (hs3 t) (ms4 t) (hs4 t) (ms5 t) (hs5 t)
      (not_first_of_later t h0) ((later_iff t).mpr h0) (not_last_of_ne t h15) (iblk m c 0 t) (iblk m c 1 t) (iblk m c 2 t) (iblk m c 3 t) (iblk m c 4 t)
      (tileAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- At the end of a row tile: the last case's contents over what the point before left. -/
theorem tileAfter_last (c : Dev nD) (t : Fin cfg0.N) (h15 : t.val % 16 = 15) :
    tileAfter m c t.val t.isLt = outLast c (grid0.coords t) (ms0 t) (hs0 t) (ms1 t) (hs1 t) (ms2 t) (hs2 t) (ms3 t) (hs3 t) (ms4 t) (hs4 t) (ms5 t) (hs5 t)
      (not_first_of_later t (later_of_last t h15)) ((later_iff t).mpr (later_of_last t h15)) ((last_iff t).mpr h15) (iblk m c 0 t) (iblk m c 1 t) (iblk m c 2 t) (iblk m c 3 t) (iblk m c 4 t)
      (tileAfter m c (t.val - 1) (Nat.lt_of_le_of_lt (Nat.sub_le _ _) t.isLt)) := by
  obtain ⟨n, hn⟩ := t
  cases n with
  | zero => exact absurd h15 (by show ¬ (0 : ℕ) % 16 = 15; decide)
  | succ n => exact (dif_neg (later_of_last ⟨n + 1, hn⟩ h15)).trans ((dif_pos h15).trans rfl)

/-! ## The pipeline's proof data -/

/-- The arrays as the region finds them; after the body each input's buffer at its block and the tile's at
    `tileAfter`; the invariant the scoped rest and the generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tileAfter m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Inside a row tile the output's staging buffer holds what the body left at the point before: the point is not the
    first, the buffer was not written back between (that happens only after the points n % 16 = 15), the window is
    never idle and its blocks are whole. -/
theorem before5_kept (c : Dev nD) (t : Fin cfg0.N) (h0 : ¬ t.val % 16 = 0) (d) :
    (dats m 0 c).before 5 t d = tileAfter m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    never_idle (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the position in the row tile says which case
    the point is in; inside a row tile the output's buffer holds what the point before left; so that case's run
    applies. The invariant passes through untouched and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 16 = 0
  · rw [tileAfter_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0) (not_later_of_first t h0) (not_last_of_first t h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · by_cases h15 : t.val % 16 = 15
    · rw [tileAfter_last m c t h15]
      simp only [before5_kept m c t h0]
      unfold outLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (not_first_of_later t h0) ((later_iff t).mpr h0) ((last_iff t).mpr h15)
        (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    · rw [tileAfter_middle m c t h0 h15]
      simp only [before5_kept m c t h0]
      unfold outMiddle
      iintro ⟨HΦ, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ (not_first_of_later t h0) ((later_iff t).mpr h0) (not_last_of_ne t h15)
        (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMiddle c _ _ _ _ _ _ _ _ _ _ _ _ _ _ _ _ _ _ _ _ _ _)

end Cert.KernelIdeal.Body

end
-- ==== Proof.KI.Frame.lean ====
/-
  The body obligation of the pipeline library from the body's triple at a generic point, then the frame run.
  The library states what the body returns per window by cases on whether the window is idle at the point; the
  output window is never idle (at every point the first or the second conditional holds), so its case is the plain one.
-/
import proofs.«131523_j1331439862247_2_alg».proof.Proof.KI.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  have hlive : cfg0.idle 5 (cfg0.grid.coords t) = false := never_idle _
  rw [hlive]
  exact sound_body m c t

/-! ## The run and the frame -/

set_option backward.isDefEq.respectTransparency.types false in
/-- From any memory with zero counters every weakly fair execution of @main terminates without a fault, every array of
    the pipeline ending at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KI.Pieces.lean ====
/-
  What each case's stores leave in the output tile's buffer, as the body's arithmetic of the blocks it loaded:
  the first case leaves the hidden block's contribution; the middle case the running tile plus the contribution;
  the last case that sum plus the second bias row. Each store is of the whole tile through the zero-offset
  rectangle, so reading the stores back is reading the last store's value; the last case's second store reads
  back the first one's.
-/
import proofs.«131523_j1331439862247_2_alg».proof.Proof.KI.Body
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first case leaves the hidden block's contribution. -/
theorem outFirst_eq (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬ k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) :
    outFirst c i arg2 harg2 arg3 harg3 arg4 harg4 arg5 harg5 arg6 harg6 arg7 harg7 h1 h2 h3 x0 x1 x2 x3 x4 = k0_pay1 x0 x1 x2 x3 := by
  unfold outFirst
  rw [View.read_writes_eq_canon _ _ _ (coverFirst c i arg2 harg2 arg3 harg3 arg4 harg4 arg5 harg5 arg6 harg6 arg7 harg7 h1 h2 h3 x0 x1 x2 x3 x4)]
  unfold runFirst
  dsimp only
  rw [View.canon_unit_zero hz]
  simp only [View.readAt_eq_ld, harg2.read_unread, harg3.read_unread, harg4.read_unread, harg5.read_unread, harg6.read_unread, harg7.read_unread,
    View.ld_unit_zero (S := S1024x2048) hz, View.ld_unit_zero (S := S2048x512) hz, View.ld_unit_zero (S := S1x512) hz,
    View.ld_unit_zero (S := S512x2048) hz, View.ld_unit_zero (S := S1x2048) hz]

/-- The middle case leaves the running tile plus the hidden block's contribution. -/
theorem outMiddle_eq (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : ¬ k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) :
    outMiddle c i arg2 harg2 arg3 harg3 arg4 harg4 arg5 harg5 arg6 harg6 arg7 harg7 h1 h2 h3 x0 x1 x2 x3 x4 xo = k0_pay2 x0 x1 x2 x3 xo := by
  unfold outMiddle
  rw [View.read_writes_eq_canon _ _ _ (coverMiddle c i arg2 harg2 arg3 harg3 arg4 harg4 arg5 harg5 arg6 harg6 arg7 harg7 h1 h2 h3 x0 x1 x2 x3 x4 xo)]
  unfold runMiddle
  dsimp only
  rw [View.canon_unit_zero hz]
  simp only [View.readAt_eq_ld, harg2.read_unread, harg3.read_unread, harg4.read_unread, harg5.read_unread, harg6.read_unread, harg7.read_unread,
    View.ld_unit_zero (S := S1024x2048) hz, View.ld_unit_zero (S := S2048x512) hz, View.ld_unit_zero (S := S1x512) hz,
    View.ld_unit_zero (S := S512x2048) hz, View.ld_unit_zero (S := S1x2048) hz]

/-- The last case leaves that sum plus the second bias row. -/
theorem outLast_eq (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x2048 .f32) (harg7 : arg7.IsWhole)
    (h1 : ¬ k0_cond1 i = 1#1) (h2 : k0_cond2 i = 1#1) (h3 : k0_cond3 i = 1#1) (x0 : Vec F S1024x2048 .bf16) (x1 : Vec F S2048x512 .bf16) (x2 : Vec F S1x512 .f32) (x3 : Vec F S512x2048 .bf16) (x4 : Vec F S1x2048 .f32) (xo : Vec F S1024x2048 .f32) :
    outLast c i arg2 harg2 arg3 harg3 arg4 harg4 arg5 harg5 arg6 harg6 arg7 harg7 h1 h2 h3 x0 x1 x2 x3 x4 xo = k0_pay3 (k0_pay2 x0 x1 x2 x3 xo) x4 := by
  unfold outLast
  rw [View.read_writes_eq_canon _ _ _ (coverLast c i arg2 harg2 arg3 harg3 arg4 harg4 arg5 harg5 arg6 harg6 arg7 harg7 h1 h2 h3 x0 x1 x2 x3 x4 xo)]
  unfold runLast
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread, harg7.read_unread,
    View.ld_unit_zero (S := S1024x2048) hz, View.ld_unit_zero (S := S2048x512) hz, View.ld_unit_zero (S := S1x512) hz,
    View.ld_unit_zero (S := S512x2048) hz, View.ld_unit_zero (S := S1x2048) hz]

end Cert.KernelIdeal.Body

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«131523_j1331439862247_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KI.Payload.lean ====
/-
  The body's arithmetic read at an entry (p, q) of the tile, on the extended reals.

  With x0 the tile's rows of x, x1 the hidden block's columns of w1, x2 the hidden block's slice of b1 (a row),
  x3 the hidden block's rows of w2:
    contribution (p, q) = ∑ kk < 512, max (∑ k < 2048, x0 (p, k) * x1 (k, kk) + x2 (0, kk)) 0 * x3 (kk, q)
  — the matrix unit accumulating into the zero vector is the plain sum over the contracted axis, the bias row
  broadcast down the rows reads the row at the column, the rectifier is the maximum with the zero word, and the
  change of format before the second product is the identity. The accumulating store adds the contribution to the
  running tile; the final store adds the second bias row at the column.
-/
import proofs.«131523_j1331439862247_2_alg».proof.Proof.Gen.KernelIdeal.Skeleton
import proofs.«131523_j1331439862247_2_alg».proof.Proof.LibDotRecord
import Idealize.ShloMosaic.Lib.ValueIdx
import Idealize.ShloMosaic.Lib.Pipeline.Value

noncomputable section

namespace Cert.KernelIdeal.Pay

open Cert.KernelIdeal Cert.KernelIdeal.Gen
open Idealize.ShloMosaic Idealize.ShloMosaic.ValueIdx

/-- The first product on a tile: rows of x against the hidden block's columns of w1. -/
theorem layer1_apply (x0 : FVec Ideal S1024x2048 .bf16) (x1 : FVec Ideal S2048x512 .bf16) (p : Fin 1024) (kk : Fin 512) :
    matmul dot_S1024x2048_S2048x512_S1024x512_1_0_0_1_n_n none x0 x1 (constant S1024x512 .f32 0x00000000#32) (ix2 p kk)
      = ∑ k : Fin 2048, x0 (ix2 p k) * x1 (ix2 k kk) :=
  DotRecord.matmul_zero_apply (φ₁ := .bf16) (φ₂ := .bf16) dot_S1024x2048_S2048x512_S1024x512_1_0_0_1_n_n rfl rfl rfl rfl rfl rfl x0 x1 none p kk

/-- The hidden block's contribution at (p, q). -/
theorem pay1_apply (x0 : Vec Ideal S1024x2048 .bf16) (x1 : Vec Ideal S2048x512 .bf16) (x2 : Vec Ideal S1x512 .f32)
    (x3 : Vec Ideal S512x2048 .bf16) (p : Fin 1024) (q : Fin 2048) :
    k0_pay1 (F := Ideal) x0 x1 x2 x3 (ix2 p q)
      = ∑ kk : Fin 512, max (∑ k : Fin 2048, x0 (ix2 p k) * x1 (ix2 k kk) + x2 (ix2 (0 : Fin 1) kk)) (Ideal.ofBits .f32 0x00000000#32)
          * x3 (ix2 kk q) := by
  unfold k0_pay1
  simp only [shapeCast_self]
  refine (DotRecord.matmul_zero_apply (φ₁ := .bf16) (φ₂ := .bf16) dot_S1024x512_S512x2048_S1024x2048_1_0_0_1_n_n rfl rfl rfl rfl rfl rfl _ x3 none p q).trans ?_
  refine Finset.sum_congr rfl fun kk _ => ?_
  refine congrArg (· * x3 (ix2 kk q)) ?_
  exact congrArg₂ max (congrArg₂ (· + ·) (layer1_apply x0 x1 p kk)
    (DotRecord.broadcastTo_1b_ab_apply x2 broadcasts_S1x512_S1024x512 p kk)) rfl

/-- The accumulating store's value at (p, q): the running tile plus the contribution. -/
theorem pay2_apply (x0 : Vec Ideal S1024x2048 .bf16) (x1 : Vec Ideal S2048x512 .bf16) (x2 : Vec Ideal S1x512 .f32)
    (x3 : Vec Ideal S512x2048 .bf16) (xo : Vec Ideal S1024x2048 .f32) (p : Fin 1024) (q : Fin 2048) :
    k0_pay2 (F := Ideal) x0 x1 x2 x3 xo (ix2 p q) = xo (ix2 p q) + k0_pay1 (F := Ideal) x0 x1 x2 x3 (ix2 p q) := by
  unfold k0_pay2
  simp only [shapeCast_self]
  rfl

/-- The final store's value at (p, q): the tile plus the second bias at the column. -/
theorem pay3_apply (v24 : Vec Ideal S1024x2048 .f32) (v26 : Vec Ideal S1x2048 .f32) (p : Fin 1024) (q : Fin 2048) :
    k0_pay3 (F := Ideal) v24 v26 (ix2 p q) = v24 (ix2 p q) + v26 (ix2 (0 : Fin 1) q) := by
  unfold k0_pay3
  simp only [shapeCast_self]
  exact congrArg (v24 (ix2 p q) + ·) (DotRecord.broadcastTo_1b_ab_apply v26 broadcasts_S1x2048_S1024x2048 p q)

end Cert.KernelIdeal.Pay

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.Spec.lean ====
/-
  The two-layer perceptron as one function of its argument arrays, on the extended reals, and the law that joins a
  hidden axis summed in blocks to the same axis summed whole.

  With x : [8192, 2048], w1 : [2048, 8192], b1 : [8192], w2 : [8192, 2048], b2 : [2048]:
    hidden p j = max (∑ k, x (p, k) * w1 (k, j) + b1 j) 0          (the first layer and its rectifier)
    mlp (p, q) = ∑ j, hidden p j * w2 (j, q) + b2 q               (the second layer)
  A kernel that walks the hidden axis in 16 blocks of 512 builds, for each entry, the sum of the 16 block sums one
  block at a time; regrouping a finite sum uses only that the addition is associative and commutative, so the two
  agree on all extended reals, infinite ones included.
-/
import Idealize.ShloMosaic.PureOps.Ideal
import Idealize.ShloMosaic.PureOps.Ideal.Laws
import Idealize.ShloMosaic.Lib.ValueIdx
import proofs.«131523_j1331439862247_2_alg».proof.Proof.LibGroupedSum
import proofs.«131523_j1331439862247_2_alg».proof.Proof.LibRunningSum

noncomputable section

namespace Mlp

open Idealize.ShloMosaic Idealize.ShloMosaic.ValueIdx

abbrev SX : Shape := ⟨2, ![8192, 2048]⟩
abbrev SW1 : Shape := ⟨2, ![2048, 8192]⟩
abbrev SB1 : Shape := ⟨1, ![8192]⟩
abbrev SW2 : Shape := ⟨2, ![8192, 2048]⟩
abbrev SB2 : Shape := ⟨1, ![2048]⟩

variable (x : SX.Idx → EReal) (w1 : SW1.Idx → EReal) (b1 : SB1.Idx → EReal) (w2 : SW2.Idx → EReal) (b2 : SB2.Idx → EReal)

/-- The hidden activation of row `p` at hidden unit `j`: the first layer, then the rectifier against the zero word. -/
def hidden (p : Fin 8192) (j : Fin 8192) : EReal :=
  max (∑ k : Fin 2048, x (ix2 p k) * w1 (ix2 k j) + b1 (ix1 j)) (Ideal.ofBits .f32 0x00000000#32)

/-- The output at row `p`, column `q`. -/
def out (p : Fin 8192) (q : Fin 2048) : EReal :=
  ∑ j : Fin 8192, hidden x w1 b1 p j * w2 (ix2 j q) + b2 (ix1 q)

/-- The whole output array. -/
def mlp : SX.Idx → EReal := fun i => out x w1 b1 w2 b2 ⟨(i 0).val, idx2_lt0 i⟩ ⟨(i 1).val, idx2_lt1 i⟩

theorem mlp_ix2 (p : Fin 8192) (q : Fin 2048) : mlp x w1 b1 w2 b2 (ix2 p q) = out x w1 b1 w2 b2 p q := rfl

/-- Hidden unit `kk` of hidden block `h` is hidden unit `512 h + kk`. -/
abbrev unit (h : Fin 16) (kk : Fin 512) : Fin 8192 := ⟨h.val * 512 + kk.val, GroupedSum.group_lt (by decide : 16 * 512 = 8192) h kk⟩

/-- Hidden block `h`'s contribution to the second layer's sum at `(p, q)`. -/
def contrib (p : Fin 8192) (q : Fin 2048) (h : Fin 16) : EReal :=
  ∑ kk : Fin 512, hidden x w1 b1 p (unit h kk) * w2 (ix2 (unit h kk) q)

/-- The second layer's sum over the whole hidden axis is the sum of the 16 blocks' contributions. -/
theorem sum_contrib (p : Fin 8192) (q : Fin 2048) :
    ∑ h : Fin 16, contrib x w1 b1 w2 p q h = ∑ j : Fin 8192, hidden x w1 b1 p j * w2 (ix2 j q) :=
  (GroupedSum.sum_groups (by decide : 16 * 512 = 8192) fun j : Fin 8192 => hidden x w1 b1 p j * w2 (ix2 j q)).symm

/-- A value built block by block — the first block's contribution, then each later block's added to it — is after
    the last block the second layer's whole sum. -/
theorem blockwise (p : Fin 8192) (q : Fin 2048) (a : (n : ℕ) → n < 16 → EReal)
    (h0 : ∀ h : 0 < 16, a 0 h = contrib x w1 b1 w2 p q ⟨0, h⟩)
    (hs : ∀ (n : ℕ) (h : n + 1 < 16), a (n + 1) h = a n (Nat.lt_of_succ_lt h) + contrib x w1 b1 w2 p q ⟨n + 1, h⟩) :
    a 15 (by decide) = ∑ j : Fin 8192, hidden x w1 b1 p j * w2 (ix2 j q) :=
  (RunningSum.last_eq (contrib x w1 b1 w2 p q) a h0 hs 15 (by decide) rfl).trans (sum_contrib x w1 b1 w2 p q)

/-- The second layer's sum built block by block: the first block's contribution, then each later block's added. -/
def partialSum (p : Fin 8192) (q : Fin 2048) : (n : ℕ) → n < 16 → EReal
  | 0, h => contrib x w1 b1 w2 p q ⟨0, h⟩
  | n + 1, h => partialSum p q n (Nat.lt_of_succ_lt h) + contrib x w1 b1 w2 p q ⟨n + 1, h⟩

/-- After the last block it is the second layer's whole sum. -/
theorem partialSum_last (p : Fin 8192) (q : Fin 2048) :
    partialSum x w1 b1 w2 p q 15 (by decide) = ∑ j : Fin 8192, hidden x w1 b1 p j * w2 (ix2 j q) :=
  blockwise x w1 b1 w2 p q (partialSum x w1 b1 w2 p q) (fun _ => rfl) (fun _ _ => rfl)

end Mlp

end
-- ==== Proof.KI.Blocks.lean ====
/-
  The windows' blocks at a grid point, read at an entry, in terms of the argument arrays as launched
  (on the extended reals the conversions to the narrow format before the region are the identity, and the two
  bias vectors are viewed as one-row matrices).

  Point t works on row tile t / 16 and hidden block t % 16:
    x's block    (p, k)  is x  (1024 (t / 16) + p, k)
    w1's block   (k, kk) is w1 (k, 512 (t % 16) + kk)
    b1's block   (0, kk) is b1 (512 (t % 16) + kk)
    w2's block   (kk, q) is w2 (512 (t % 16) + kk, q)
    b2's block   (0, q)  is b2 q
  and the output's block sits at rows 1024 (t / 16) + p.
-/
import proofs.«131523_j1331439862247_2_alg».proof.Proof.Gen.KernelIdeal.Frame
import proofs.«131523_j1331439862247_2_alg».proof.Proof.Spec
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The arrays the region finds: the conversions to the narrow format are the identity on the extended reals -/

theorem V_x (c : Dev nD) : (V m c main_v0 : S8192x2048.Idx → EReal)
    = (m ((c : Thread nD τ).loc main_arg0) : S8192x2048.Idx → EReal) := by
  dsimp only [V, hostOps0]; after_results; rfl
theorem V_w1 (c : Dev nD) : (V m c main_v1 : S2048x8192.Idx → EReal)
    = (m ((c : Thread nD τ).loc main_arg1) : S2048x8192.Idx → EReal) := by
  dsimp only [V, hostOps0]; after_results; rfl
theorem V_w2 (c : Dev nD) : (V m c main_v2 : S8192x2048.Idx → EReal)
    = (m ((c : Thread nD τ).loc main_arg3) : S8192x2048.Idx → EReal) := by
  dsimp only [V, hostOps0]; after_results; rfl
theorem V_b1 (c : Dev nD) : (V m c main_v3 : S1x8192.Idx → EReal)
    = shapeCast S1x8192 (m ((c : Thread nD τ).loc main_arg2) : S8192.Idx → EReal) shapeCasts_S8192_S1x8192 := by
  dsimp only [V, hostOps0]; after_results; rfl
theorem V_b2 (c : Dev nD) : (V m c main_v4 : S1x2048.Idx → EReal)
    = shapeCast S1x2048 (m ((c : Thread nD τ).loc main_arg4) : S2048.Idx → EReal) shapeCasts_S2048_S1x2048 := by
  dsimp only [V, hostOps0]; after_results; rfl

/-! ## Where the blocks sit -/

/-- The printed index maps over the grid: row tile t / 16, hidden block t % 16. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = t.val % 16 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-- The hidden block of point `t`. -/
abbrev blockOf (t : Fin cfg0.N) : Fin 16 := ⟨t.val % 16, Nat.mod_lt _ (by decide)⟩

theorem tileRow_lt (t : Fin cfg0.N) (p : Fin 1024) : t.val / 16 * 1024 + p.val < 8192 := by
  have hN : t.val < 128 := lt_of_lt_of_eq t.isLt N_0
  have := p.isLt; omega

/-- Row `p` of point `t`'s row tile, in the whole array. -/
abbrev tileRow (t : Fin cfg0.N) (p : Fin 1024) : Fin 8192 := ⟨t.val / 16 * 1024 + p.val, tileRow_lt t p⟩

/-! ## The blocks read at an entry -/

theorem x_blk (c : Dev nD) (t : Fin cfg0.N) (p : Fin 1024) (k : Fin 2048) :
    (iblk m c 0 t : Vec Ideal S1024x2048 .bf16) (ix2 p k) = (m ((c : Thread nD τ).loc main_arg0) : S8192x2048.Idx → EReal) (ix2 (tileRow t p) k) := by
  obtain ⟨e0, e1, -⟩ := idx_facts t
  unfold iblk
  rw [View.read_apply]
  show V m c main_v0 _ = _
  rw [V_x]
  show (m ((c : Thread nD τ).loc main_arg0) : S8192x2048.Idx → EReal) _ = _
  refine congrArg _ (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 2048 + 1 * k.val = k.val; rw [e1]; omega

theorem w1_blk (c : Dev nD) (t : Fin cfg0.N) (k : Fin 2048) (kk : Fin 512) :
    (iblk m c 1 t : Vec Ideal S2048x512 .bf16) (ix2 k kk) = (m ((c : Thread nD τ).loc main_arg1) : S2048x8192.Idx → EReal) (ix2 k (Mlp.unit (blockOf t) kk)) := by
  obtain ⟨-, -, e0, e1, -⟩ := idx_facts t
  unfold iblk
  rw [View.read_apply]
  show V m c main_v1 _ = _
  rw [V_w1]
  show (m ((c : Thread nD τ).loc main_arg1) : S2048x8192.Idx → EReal) _ = _
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 512 + 1 * kk.val = t.val % 16 * 512 + kk.val; rw [e1]; omega

theorem b1_blk (c : Dev nD) (t : Fin cfg0.N) (kk : Fin 512) :
    (iblk m c 2 t : Vec Ideal S1x512 .f32) (ix2 (0 : Fin 1) kk) = (m ((c : Thread nD τ).loc main_arg2) : S8192.Idx → EReal) (ix1 (Mlp.unit (blockOf t) kk)) := by
  obtain ⟨-, -, -, -, e0, e1, -⟩ := idx_facts t
  unfold iblk
  rw [View.read_apply]
  show V m c main_v3 _ = _
  rw [V_b1]
  refine (shapeCast_addUnit_apply ![8192] _ _ _).trans ?_
  refine congrArg _ (funext fun a => Fin.ext ?_)
  match a with
  | ⟨0, _⟩ => show win0_2.index t (1 : Fin 2) * 512 + 1 * kk.val = t.val % 16 * 512 + kk.val; rw [e1]; omega

theorem w2_blk (c : Dev nD) (t : Fin cfg0.N) (kk : Fin 512) (q : Fin 2048) :
    (iblk m c 3 t : Vec Ideal S512x2048 .bf16) (ix2 kk q) = (m ((c : Thread nD τ).loc main_arg3) : S8192x2048.Idx → EReal) (ix2 (Mlp.unit (blockOf t) kk) q) := by
  obtain ⟨-, -, -, -, -, -, e0, e1, -⟩ := idx_facts t
  unfold iblk
  rw [View.read_apply]
  show V m c main_v2 _ = _
  rw [V_w2]
  show (m ((c : Thread nD τ).loc main_arg3) : S8192x2048.Idx → EReal) _ = _
  refine congrArg _ (funext fun a => Fin.ext ?_)
  match a with
  | ⟨0, _⟩ => show win0_3.index t (0 : Fin 2) * 512 + 1 * kk.val = t.val % 16 * 512 + kk.val; rw [e0]; omega
  | ⟨1, _⟩ => show win0_3.index t (1 : Fin 2) * 2048 + 1 * q.val = q.val; rw [e1]; omega

theorem b2_blk (c : Dev nD) (t : Fin cfg0.N) (q : Fin 2048) :
    (iblk m c 4 t : Vec Ideal S1x2048 .f32) (ix2 (0 : Fin 1) q) = (m ((c : Thread nD τ).loc main_arg4) : S2048.Idx → EReal) (ix1 q) := by
  obtain ⟨-, -, -, -, -, -, -, -, e0, e1, -⟩ := idx_facts t
  unfold iblk
  rw [View.read_apply]
  show V m c main_v4 _ = _
  rw [V_b2]
  refine (shapeCast_addUnit_apply ![2048] _ _ _).trans ?_
  refine congrArg _ (funext fun a => Fin.ext ?_)
  match a with
  | ⟨0, _⟩ => show win0_4.index t (1 : Fin 2) * 2048 + 1 * q.val = q.val; rw [e1]; omega

end Cert.KernelIdeal.Blocks

end
-- ==== Proof.KI.Tile.lean ====
/-
  The output tile's buffer, point by point, read at an entry (p, q) on the extended reals.

  At the first point of a row tile it holds the first hidden block's contribution; at each later point the previous
  contents plus that point's hidden block's contribution; at the last point also the second bias at the column.
  So along row tile r it holds, after hidden block h < 15, the specification's block-by-block partial sum, and
  after hidden block 15 the specification's output at row 1024 r + p, column q.
-/
import proofs.«131523_j1331439862247_2_alg».proof.Proof.KI.Pieces
import proofs.«131523_j1331439862247_2_alg».proof.Proof.KI.Payload
import proofs.«131523_j1331439862247_2_alg».proof.Proof.KI.Blocks

set_option maxRecDepth 16384

noncomputable section

namespace Cert.KernelIdeal.Tile

open Cert.KernelIdeal Cert.KernelIdeal.Gen Cert.KernelIdeal.Body Cert.KernelIdeal.Blocks Cert.KernelIdeal.Pay
open Idealize.ShloMosaic Idealize.ShloMosaic.TcCoe Idealize.ShloMosaic.ValueIdx
open Idealize.SL Idealize.SL.Sem

variable (m : (ℓ : Loc nD τ sig) → Buf (Elt Ideal) ℓ)

/-- The five argument arrays as launched, as functions on their indices. -/
abbrev X (c : Dev nD) : S8192x2048.Idx → EReal := m ((c : Thread nD τ).loc main_arg0)
abbrev W1 (c : Dev nD) : S2048x8192.Idx → EReal := m ((c : Thread nD τ).loc main_arg1)
abbrev B1 (c : Dev nD) : S8192.Idx → EReal := m ((c : Thread nD τ).loc main_arg2)
abbrev W2 (c : Dev nD) : S8192x2048.Idx → EReal := m ((c : Thread nD τ).loc main_arg3)
abbrev B2 (c : Dev nD) : S2048.Idx → EReal := m ((c : Thread nD τ).loc main_arg4)

/-- The body's contribution at point `t`, entry (p, q), is the specification's contribution of hidden block t % 16
    at row 1024 (t / 16) + p. -/
theorem contrib_at (c : Dev nD) (t : Fin cfg0.N) (p : Fin 1024) (q : Fin 2048) :
    k0_pay1 (F := Ideal) (iblk m c 0 t) (iblk m c 1 t) (iblk m c 2 t) (iblk m c 3 t) (ix2 p q)
      = Mlp.contrib (X m c) (W1 m c) (B1 m c) (W2 m c) (tileRow t p) q (blockOf t) := by
  refine (pay1_apply (iblk m c 0 t) (iblk m c 1 t) (iblk m c 2 t) (iblk m c 3 t) p q).trans ?_
  unfold Mlp.contrib Mlp.hidden
  refine Finset.sum_congr rfl fun kk _ => ?_
  exact congrArg₂ (fun a b : EReal => a * b)
    (congrArg₂ (fun a b : EReal => max a b)
      (congrArg₂ (fun a b : EReal => a + b)
        (Finset.sum_congr rfl fun k _ => congrArg₂ (fun a b : EReal => a * b) (x_blk m c t p k) (w1_blk m c t k kk))
        (b1_blk m c t kk))
      rfl)
    (w2_blk m c t kk q)

/-- At the first point of a row tile. -/
theorem first_step (c : Dev nD) (t : Fin cfg0.N) (h0 : t.val % 16 = 0) (p : Fin 1024) (q : Fin 2048) :
    tileAfter m c t.val t.isLt (ix2 p q) = Mlp.contrib (X m c) (W1 m c) (B1 m c) (W2 m c) (tileRow t p) q (blockOf t) := by
  rw [tileAfter_first m c t h0, outFirst_eq]
  exact contrib_at m c t p q

/-- Strictly inside a row tile. -/
theorem middle_step (c : Dev nD) (t : Fin cfg0.N) (h0 : ¬ t.val % 16 = 0) (h15 : ¬ t.val % 16 = 15) (p : Fin 1024) (q : Fin 2048) :
    tileAfter m c t.val t.isLt (ix2 p q)
      = tileAfter m c (t.val - 1) (Nat.lt_of_le_of_lt (Nat.sub_le _ _) t.isLt) (ix2 p q)
        + Mlp.contrib (X m c) (W1 m c) (B1 m c) (W2 m c) (tileRow t p) q (blockOf t) := by
  rw [tileAfter_middle m c t h0 h15, outMiddle_eq]
  refine (pay2_apply (iblk m c 0 t) (iblk m c 1 t) (iblk m c 2 t) (iblk m c 3 t) (tileAfter m c (t.val - 1) (Nat.lt_of_le_of_lt (Nat.sub_le _ _) t.isLt)) p q).trans ?_
  exact congrArg (_ + ·) (contrib_at m c t p q)

/-- At the last point of a row tile. -/
theorem last_step (c : Dev nD) (t : Fin cfg0.N) (h15 : t.val % 16 = 15) (p : Fin 1024) (q : Fin 2048) :
    tileAfter m c t.val t.isLt (ix2 p q)
      = tileAfter m c (t.val - 1) (Nat.lt_of_le_of_lt (Nat.sub_le _ _) t.isLt) (ix2 p q)
        + Mlp.contrib (X m c) (W1 m c) (B1 m c) (W2 m c) (tileRow t p) q (blockOf t) + B2 m c (ix1 q) := by
  rw [tileAfter_last m c t h15, outLast_eq]
  refine (pay3_apply (k0_pay2 (F := Ideal) (iblk m c 0 t) (iblk m c 1 t) (iblk m c 2 t) (iblk m c 3 t) (tileAfter m c (t.val - 1) (Nat.lt_of_le_of_lt (Nat.sub_le _ _) t.isLt)))
    (iblk m c 4 t) p q).trans ?_
  rw [b2_blk m c t q]
  refine congrArg (· + _) ?_
  refine (pay2_apply (iblk m c 0 t) (iblk m c 1 t) (iblk m c 2 t) (iblk m c 3 t) (tileAfter m c (t.val - 1) (Nat.lt_of_le_of_lt (Nat.sub_le _ _) t.isLt)) p q).trans ?_
  exact congrArg (_ + ·) (contrib_at m c t p q)

/-- The tile's contents depend on the point's number only. -/
theorem tileAfter_idx (c : Dev nD) {a b : ℕ} (hab : a = b) (ha : a < cfg0.N) (hb : b < cfg0.N) :
    tileAfter m c a ha = tileAfter m c b hb := by subst hab; rfl

theorem point_lt (r : Fin 8) (h : ℕ) (hh : h < 16) : 16 * r.val + h < cfg0.N := by
  rw [show cfg0.N = 128 from N_0]; have := r.isLt; omega

theorem row_lt (r : Fin 8) (p : Fin 1024) : r.val * 1024 + p.val < 8192 := by
  have := r.isLt; have := p.isLt; omega

/-- Row `p` of row tile `r`, in the whole array. -/
abbrev rowOf (r : Fin 8) (p : Fin 1024) : Fin 8192 := ⟨r.val * 1024 + p.val, row_lt r p⟩

/-- The specification's contribution depends on the row's and the block's numbers only. -/
theorem contrib_congr (c : Dev nD) (q : Fin 2048) {a a' : Fin 8192} {b b' : Fin 16} (ha : a.val = a'.val) (hb : b.val = b'.val) :
    Mlp.contrib (X m c) (W1 m c) (B1 m c) (W2 m c) a q b = Mlp.contrib (X m c) (W1 m c) (B1 m c) (W2 m c) a' q b' := by
  rw [Fin.ext ha, Fin.ext hb]

/-- Along row tile `r`, after hidden block `h < 15`, the tile holds the partial sum through block `h`. -/
theorem tile_inside (c : Dev nD) (r : Fin 8) (p : Fin 1024) (q : Fin 2048) : ∀ (h : ℕ) (hh : h < 15),
    tileAfter m c (16 * r.val + h) (point_lt r h (by omega)) (ix2 p q)
      = Mlp.partialSum (X m c) (W1 m c) (B1 m c) (W2 m c) (rowOf r p) q h (by omega)
  | 0, hh =>
    (first_step m c ⟨16 * r.val + 0, point_lt r 0 (by omega)⟩ (by show (16 * r.val + 0) % 16 = 0; omega) p q).trans
      (contrib_congr m c q (by show (16 * r.val + 0) / 16 * 1024 + p.val = r.val * 1024 + p.val; omega)
        (by show (16 * r.val + 0) % 16 = 0; omega))
  | h + 1, hh =>
    (middle_step m c ⟨16 * r.val + (h + 1), point_lt r (h + 1) (by omega)⟩ (by show ¬ (16 * r.val + (h + 1)) % 16 = 0; omega)
        (by show ¬ (16 * r.val + (h + 1)) % 16 = 15; omega) p q).trans
      (congrArg₂ (· + ·)
        ((congrFun (tileAfter_idx m c (by show 16 * r.val + (h + 1) - 1 = 16 * r.val + h; omega) _ (point_lt r h (by omega))) (ix2 p q)).trans
          (tile_inside c r p q h (by omega)))
        (contrib_congr m c q (by show (16 * r.val + (h + 1)) / 16 * 1024 + p.val = r.val * 1024 + p.val; omega)
          (by show (16 * r.val + (h + 1)) % 16 = h + 1; omega)))

/-- After the last hidden block the tile holds the specification's output rows. -/
theorem tile_last (c : Dev nD) (r : Fin 8) (p : Fin 1024) (q : Fin 2048) :
    tileAfter m c (16 * r.val + 15) (point_lt r 15 (by omega)) (ix2 p q)
      = Mlp.out (X m c) (W1 m c) (B1 m c) (W2 m c) (B2 m c) (rowOf r p) q := by
  refine (last_step m c ⟨16 * r.val + 15, point_lt r 15 (by omega)⟩ (by show (16 * r.val + 15) % 16 = 15; omega) p q).trans ?_
  unfold Mlp.out
  refine congrArg (· + _) ?_
  rw [← Mlp.partialSum_last]
  exact congrArg₂ (· + ·)
    ((congrFun (tileAfter_idx m c (by show 16 * r.val + 15 - 1 = 16 * r.val + 14; omega) _ (point_lt r 14 (by omega))) (ix2 p q)).trans
      (tile_inside m c r p q 14 (by omega)))
    (contrib_congr m c q (by show (16 * r.val + 15) / 16 * 1024 + p.val = r.val * 1024 + p.val; omega)
      (by show (16 * r.val + 15) % 16 = 14 + 1; omega))

end Cert.KernelIdeal.Tile

end
-- ==== Proof.KI.Final.lean ====
/-
  The kernel's result array on the extended reals is the specification's perceptron of the argument arrays.

  The output window is written back exactly after the last hidden block of each row tile (the points t % 16 = 15),
  and what is written back there is the tile after that point: the specification's rows 1024 (t / 16) + p. The eight
  written-back tiles cover the [8192, 2048] array (row i lies in the tile of row tile i / 1024), so the array ends
  at the specification's function.
-/
import proofs.«131523_j1331439862247_2_alg».proof.Proof.KI.Tile
import proofs.«131523_j1331439862247_2_alg».proof.Proof.KI.Frame

set_option maxRecDepth 16384

noncomputable section

namespace Cert.KernelIdeal.Result

open Cert.KernelIdeal Cert.KernelIdeal.Gen Cert.KernelIdeal.Body Cert.KernelIdeal.Blocks Cert.KernelIdeal.Tile
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The perceptron of the argument arrays as launched. -/
abbrev result (c : Dev nD) : S8192x2048.Idx → EReal := Mlp.mlp (X m c) (W1 m c) (B1 m c) (W2 m c) (B2 m c)

/-- What a write-back writes is the block of the perceptron at the point's row tile. -/
theorem flushed_eq (c : Dev nD) (t : Fin cfg0.N) (hf : (cfg0.win 5).flush t = true) :
    (dats m 0 c).flushed 5 t = ((cfg0.win 5).blk t).view.read (Elt Ideal) (result m c) := by
  have h15 : t.val % 16 = 15 := (flush0_5 t).mp hf
  have hN : t.val < 128 := lt_of_lt_of_eq t.isLt N_0
  obtain ⟨-, -, -, -, -, -, -, -, -, -, e0, e1⟩ := idx_facts t
  show (cfg0.win 5).cut (grid0.coords t) ((dats m 0 c).after 5 t) = _
  rw [after5]
  funext j
  obtain ⟨p, q, rfl⟩ : ∃ (p : Fin 1024) (q : Fin 2048), j = ix2 p q := ⟨j 0, j 1, eq_ix2 j⟩
  show tileAfter m c t.val t.isLt (ix2 p q) = result m c (((cfg0.win 5).blk t).view.emb (ix2 p q))
  obtain ⟨r, hr⟩ : ∃ r : Fin 8, r.val = t.val / 16 := ⟨⟨t.val / 16, by omega⟩, rfl⟩
  refine ((congrFun (tileAfter_idx m c (show t.val = 16 * r.val + 15 by omega) t.isLt (point_lt r 15 (by omega))) (ix2 p q)).trans
    (tile_last m c r p q)).trans ?_
  refine congrArg₂ (Mlp.out (X m c) (W1 m c) (B1 m c) (W2 m c) (B2 m c)) (Fin.ext ?_) (Fin.ext ?_)
  · show r.val * 1024 + p.val = win0_5.index t (0 : Fin 2) * 1024 + 1 * p.val
    rw [e0]; omega
  · show q.val = win0_5.index t (1 : Fin 2) * 2048 + 1 * q.val
    rw [e1]; omega

/-- Every entry of the array lies in the tile written back after its row tile's last hidden block. -/
theorem covered (i : S8192x2048.Idx) :
    ∃ t : Fin cfg0.N, (cfg0.win 5).flush t = true ∧ i ∈ ((cfg0.win 5).blk t).view.set := by
  have hi0 : (i 0).val < 8192 := idx2_lt0 i
  have hi1 : (i 1).val < 2048 := idx2_lt1 i
  obtain ⟨t, ht⟩ : ∃ t : Fin cfg0.N, t.val = 16 * ((i 0).val / 1024) + 15 :=
    ⟨⟨16 * ((i 0).val / 1024) + 15, by rw [show cfg0.N = 128 from N_0]; omega⟩, rfl⟩
  obtain ⟨-, -, -, -, -, -, -, -, -, -, e0, e1⟩ := idx_facts t
  refine ⟨t, (flush0_5 t).mpr (by omega), ?_⟩
  show i ∈ ((View.whole main_v5).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 2048 ≤ (i 1).val ∧ (i 1).val < win0_5.index t (1 : Fin 2) * 2048 + 2048
    rw [e1]; omega

/-- The result array after the run. -/
theorem final (c : Dev nD) : (dats m 0 c).arrAt 5 cfg0.N = result m c :=
  (dats m 0 c).arrAt_eq_of_cover 5 (result m c) (flushed_eq m c) covered

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Result

end
-- ==== Proof.Ref.lean ====
/-
  The reference program computes the perceptron of the specification: read one operation at a time at the entry
  (p, q), its result is the second layer's sum over the 8192 hidden units of the rectified first layer times w2,
  plus the second bias. The host's matrix products are the plain sums over the contracted axis, its broadcasts of
  the biases read the bias at the column, and its rectifier is the maximum with the zero word.
-/
import proofs.«131523_j1331439862247_2_alg».proof.Proof.Gen.ReferenceIdeal.Read
import proofs.«131523_j1331439862247_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The hidden activation the reference forms at (p, j) is the specification's. -/
theorem hidden_eq (x0 : (⟨S8192x2048, .f32⟩ : BufTy).Contents (Elt Ideal)) (x1 : (⟨S2048x8192, .f32⟩ : BufTy).Contents (Elt Ideal))
    (x2 : (⟨S8192, .f32⟩ : BufTy).Contents (Elt Ideal)) (p : Fin 8192) (j : Fin 8192) :
    val_main_v5 (F := Ideal) x0 x1 x2 (ix2 p j) = Mlp.hidden x0 x1 x2 p j := by
  rw [val_main_v5_apply, val_main_v3_apply, val_main_v0_apply, val_main_v2_apply, val_main_v1_apply, val_main_v4_apply,
    val_main_cst_apply]
  have el (k : Fin 2048) : lidx_main_v0 (ix2 p j) k = ix2 p k :=
    funext fun a => Fin.ext (by match a with | ⟨0, _⟩ => rfl | ⟨1, _⟩ => rfl)
  have er (k : Fin 2048) : ridx_main_v0 (ix2 p j) k = ix2 k j :=
    funext fun a => Fin.ext (by match a with | ⟨0, _⟩ => rfl | ⟨1, _⟩ => rfl)
  have eb : idx_main_v1 (idx_main_v2 (ix2 p j)) = ix1 j :=
    funext fun a => Fin.ext (by match a with | ⟨0, _⟩ => rfl)
  simp only [el, er, eb]
  rfl

/-- The reference's result is the specification's perceptron of its five arguments. -/
theorem result_eq (x0 : (⟨S8192x2048, .f32⟩ : BufTy).Contents (Elt Ideal)) (x1 : (⟨S2048x8192, .f32⟩ : BufTy).Contents (Elt Ideal))
    (x2 : (⟨S8192, .f32⟩ : BufTy).Contents (Elt Ideal)) (x3 : (⟨S8192x2048, .f32⟩ : BufTy).Contents (Elt Ideal))
    (x4 : (⟨S2048, .f32⟩ : BufTy).Contents (Elt Ideal)) :
    val_main_v9 (F := Ideal) x0 x1 x2 x3 x4 = Mlp.mlp x0 x1 x2 x3 x4 := by
  funext i
  obtain ⟨p, q, rfl⟩ : ∃ (p : Fin 8192) (q : Fin 2048), i = ix2 p q := ⟨i 0, i 1, eq_ix2 i⟩
  rw [Mlp.mlp_ix2, val_main_v9_apply, val_main_v6_apply, val_main_v8_apply, val_main_v7_apply]
  have el (k : Fin 8192) : lidx_main_v6 (ix2 p q) k = ix2 p k :=
    funext fun a => Fin.ext (by match a with | ⟨0, _⟩ => rfl | ⟨1, _⟩ => rfl)
  have er (k : Fin 8192) : ridx_main_v6 (ix2 p q) k = ix2 k q :=
    funext fun a => Fin.ext (by match a with | ⟨0, _⟩ => rfl | ⟨1, _⟩ => rfl)
  have eb : idx_main_v7 (idx_main_v8 (ix2 p q)) = ix1 q :=
    funext fun a => Fin.ext (by match a with | ⟨0, _⟩ => rfl)
  simp only [el, er, eb, hidden_eq]
  rfl

end Cert.ReferenceIdeal.RefValue

end
-- ==== Proof.lean ====
/-
  A two-layer perceptron, out = relu (x · w1 + b1) · w2 + b2 with x : [8192, 2048], w1 : [2048, 8192], b1 : [8192],
  w2 : [8192, 2048], b2 : [2048], as a kernel on a grid of 8 row tiles by 16 hidden blocks against the plain
  formula.

  The kernel. At the point of row tile r and hidden block h the body forms the hidden block's contribution
    C (p, q) = ∑ kk < 512, max (∑ k, x (1024 r + p, k) * w1 (k, 512 h + kk) + b1 (512 h + kk)) 0 * w2 (512 h + kk, q)
  and keeps the output tile in its staging buffer across the 16 hidden blocks: assigned C at h = 0, C added at
  h > 0, b2 added at h = 15, written back after h = 15. The body branches on h alone; the three cases that occur
  (h = 0, 0 < h < 15, h = 15) are run whole once each, and the tile's contents are defined point by point from them.
  That gives the frames of both printed kernels (they terminate, fault nowhere, leave the arguments unchanged).

  The value. On the extended reals the narrow-format conversions are the identity and the matrix unit accumulating
  into zero is the plain sum, so the tile after the last hidden block holds ((C₀ + C₁) + … + C₁₅) + b2, and the sum of
  the 16 block sums is the sum over all 8192 hidden units: regrouping a finite sum needs only associativity and
  commutativity, so no finiteness of the inputs is used. The reference, read one operation at a time, is the same
  function. The idealization rewrote nothing, so its conjunct is trivial.
-/
import proofs.«131523_j1331439862247_2_alg».proof.Defs
import proofs.«131523_j1331439862247_2_alg».proof.Proof.Gen.Kernel
import proofs.«131523_j1331439862247_2_alg».proof.Proof.Gen.KernelIdeal
import proofs.«131523_j1331439862247_2_alg».proof.Proof.Gen.ReferenceIdeal
import proofs.«131523_j1331439862247_2_alg».proof.Proof.Gen.ReferenceIdeal.Run
import proofs.«131523_j1331439862247_2_alg».proof.Proof.Gen.ReferenceIdeal.Read
import proofs.«131523_j1331439862247_2_alg».proof.Proof.Gen.Pre_finite_inputs
import proofs.«131523_j1331439862247_2_alg».proof.Proof.K.Frame
import proofs.«131523_j1331439862247_2_alg».proof.Proof.KI.Frame
import proofs.«131523_j1331439862247_2_alg».proof.Proof.KI.Final
import proofs.«131523_j1331439862247_2_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's perceptron of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
